-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x512 : Shape := ⟨3, ![32, 8192, 512]⟩
abbrev S32x1x512 : Shape := ⟨3, ![32, 1, 512]⟩
abbrev S512x1024 : Shape := ⟨2, ![512, 1024]⟩
abbrev S512 : Shape := ⟨1, ![512]⟩
abbrev S_ : Shape := ⟨0, ![]⟩

class Facts : Prop where
  bcast_S_S32x8192x512 : S_.BroadcastsInDim S32x8192x512 (![] : Fin 0 → Fin S32x8192x512.rank)
  reducesTo_S32x8192x512_S_d0_1_2 : S32x8192x512.ReducesTo [0, 1, 2] S_
  h_S_ : 0 < S_.numel
  bcast_S_S32x1x512 : S_.BroadcastsInDim S32x1x512 (![] : Fin 0 → Fin S32x1x512.rank)
  reducesTo_S32x1x512_S_d0_1_2 : S32x1x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S32x8192x512 .f32) (main_arg1 : FVec F S32x1x512 .f32) (main_arg2 : FVec F S512x1024 .f32) (main_arg3 : FVec F S512 .f32) : IVec S_ 1 :=
  let main_v0 : FVec F S32x8192x512 .f32 := Host.absf main_arg0
  let main_cst : FVec F S_ .f32 := constant S_ .f32 0x7F800000#32
  let main_v1 : FVec F S32x8192x512 .f32 := broadcastInDim S32x8192x512 ![] bcast_S_S32x8192x512 main_cst
  let main_v2 : IVec S32x8192x512 1 := cmpf .olt main_v0 main_v1
  let main_c : IVec S_ 1 := constantI S_ 1 1#1
  let main_v3 : IVec S_ 1 := (fun x v => Host.reduce IntOp.andi x v reducesTo_S32x8192x512_S_d0_1_2 h_S_) main_v2 main_c
  let main_v4 : FVec F S32x1x512 .f32 := Host.absf main_arg1
  let main_cst_0 : FVec F S_ .f32 := constant S_ .f32 0x7F800000#32
  let main_v5 : FVec F S32x1x512 .f32 := broadcastInDim S32x1x512 ![] bcast_S_S32x1x512 main_cst_0
  let main_v6 : IVec S32x1x512 1 := cmpf .olt main_v4 main_v5
  let main_c_1 : IVec S_ 1 := constantI S_ 1 1#1
  let main_v7 : IVec S_ 1 := (fun x v => Host.reduce IntOp.andi x v reducesTo_S32x1x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32x8192x512 : Shape := ⟨3, ![32, 8192, 512]⟩
abbrev S32x1x512 : Shape := ⟨3, ![32, 1, 512]⟩
abbrev S512x1024 : Shape := ⟨2, ![512, 1024]⟩
abbrev S512 : Shape := ⟨1, ![512]⟩
abbrev S32x1x8192 : Shape := ⟨3, ![32, 1, 8192]⟩
abbrev S1x8192x512 : Shape := ⟨3, ![1, 8192, 512]⟩
abbrev S1x1x512 : Shape := ⟨3, ![1, 1, 512]⟩
abbrev S1x1x8192 : Shape := ⟨3, ![1, 1, 8192]⟩
abbrev S8192x512 : Shape := ⟨2, ![8192, 512]⟩
abbrev S1x512 : Shape := ⟨2, ![1, 512]⟩
abbrev S1x8192 : Shape := ⟨2, ![1, 8192]⟩
abbrev S1 : Shape := ⟨1, ![1]⟩
abbrev S1x1 : Shape := ⟨2, ![1, 1]⟩
abbrev S32x8192 : Shape := ⟨2, ![32, 8192]⟩
abbrev S32x512 : Shape := ⟨2, ![32, 512]⟩
abbrev S32x1024 : Shape := ⟨2, ![32, 1024]⟩
abbrev S1024x512 : Shape := ⟨2, ![1024, 512]⟩

abbrev nBuf : Space → Nat
  | .hbm => 16
  | .vmem => 8
  | .smem => 0
  | _ => 0

abbrev bufTy : (tb : Table) → Fin (tcTables nBuf tb) → BufTy
  | .hbm, ⟨0, _⟩ => ⟨S32x8192x512, .f32⟩
  | .hbm, ⟨1, _⟩ => ⟨S32x1x512, .f32⟩
  | .hbm, ⟨2, _⟩ => ⟨S512x1024, .f32⟩
  | .hbm, ⟨3, _⟩ => ⟨S512, .f32⟩
  | .hbm, ⟨4, _⟩ => ⟨S32x1x8192, .f32⟩
  | .hbm, ⟨5, _⟩ => ⟨S32x1x512, .f32⟩
  | .hbm, ⟨6, _⟩ => ⟨S32x8192, .f32⟩
  | .hbm, ⟨7, _⟩ => ⟨S32x512, .f32⟩
  | .hbm, ⟨8, _⟩ => ⟨S32x512, .f32⟩
  | .hbm, ⟨9, _⟩ => ⟨S32x1024, .f32⟩
  | .hbm, ⟨10, _⟩ => ⟨S32x1024, .f32⟩
  | .hbm, ⟨11, _⟩ => ⟨S1024x512, .f32⟩
  | .hbm, ⟨12, _⟩ => ⟨S32x512, .f32⟩
  | .hbm, ⟨13, _⟩ => ⟨S1x512, .f32⟩
  | .hbm, ⟨14, _⟩ => ⟨S32x512, .f32⟩
  | .hbm, ⟨15, _⟩ => ⟨S32x512, .f32⟩
  | .local _ .vmem, ⟨0, _⟩ => ⟨S1x8192x512, .f32⟩
  | .local _ .vmem, ⟨1, _⟩ => ⟨S1x8192x512, .f32⟩
  | .local _ .vmem, ⟨2, _⟩ => ⟨S1x1x512, .f32⟩
  | .local _ .vmem, ⟨3, _⟩ => ⟨S1x1x512, .f32⟩
  | .local _ .vmem, ⟨4, _⟩ => ⟨S1x1x8192, .f32⟩
  | .local _ .vmem, ⟨5, _⟩ => ⟨S1x1x8192, .f32⟩
  | .local _ .vmem, ⟨6, _⟩ => ⟨S1x1x512, .f32⟩
  | .local _ .vmem, ⟨7, _⟩ => ⟨S1x1x512, .f32⟩
  | _, _ => ⟨S32x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x8192x512_S1x8192x512_0_0_0 : ∀ a, (![0, 0, 0] : Fin 3 → Nat) a + S1x8192x512.size a ≤ S1x8192x512.size a
  h_S1x8192x512 : 0 < S1x8192x512.numel
  shapeCasts_S1x8192x512_S8192x512 : S1x8192x512.ShapeCasts S8192x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  reduces_S1x8192_S1 : S1x8192.Reduces [1] S1
  shapeCasts_S1_S1x1 : S1.ShapeCasts S1x1
  broadcasts_S1x1_S1x8192 : S1x1.Broadcasts S1x8192
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x512_S1x1x512 : S1x512.ShapeCasts S1x1x512
  shapeCasts_S32x1x8192_S32x8192 : S32x1x8192.ShapeCasts S32x8192
  shapeCasts_S32x1x512_S32x512 : S32x1x512.ShapeCasts S32x512
  concatenates_S32x512_S32x512_S32x1024_d1 : Shape.Concatenates [S32x512, S32x512] S32x1024 1
  transposes_S512x1024_S1024x512_1_0 : S512x1024.Transposes [1, 0] S1024x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  dot_S1x512_S8192x512_S1x8192_1_1_0_0_n_n_wf : DotDims.WF S1x512 S8192x512 S1x8192 [1] [1] [0] [0] [] []
  dot_S1x8192_S8192x512_S1x512_1_0_0_1_n_n_wf : DotDims.WF S1x8192 S8192x512 S1x512 [1] [0] [0] [1] [] []
  dot_S32x1024_S1024x512_S32x512_1_0_0_1_n_n_wf : DotDims.WF S32x1024 S1024x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x512.size a ≤ S32x8192x512.size a
  hwx0_0 : ∀ i : grid0.Coords, EltTy.bits .f32 = 32 ∨ (Rect.block (s := S32x8192x512) S1x8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .f32 = 32 ∨ (Rect.block (s := S32x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S32x1x8192.size a
  hwx0_2 : ∀ i : grid0.Coords, EltTy.bits .f32 = 32 ∨ (Rect.block (s := S32x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)

variable [Facts₀]

def dot_S1x512_S8192x512_S1x8192_1_1_0_0_n_n : DotDims S1x512 S8192x512 S1x8192 where
  lhsContracting := [1]
  rhsContracting := [1]
  lhsNonContracting := [0]
  rhsNonContracting := [0]
  lhsBatch := []
  rhsBatch := []
  wf := dot_S1x512_S8192x512_S1x8192_1_1_0_0_n_n_wf
def dot_S1x8192_S8192x512_S1x512_1_0_0_1_n_n : DotDims S1x8192 S8192x512 S1x512 where
  lhsContracting := [1]
  rhsContracting := [0]
  lhsNonContracting := [0]
  rhsNonContracting := [1]
  lhsBatch := []
  rhsBatch := []
  wf := dot_S1x8192_S8192x512_S1x512_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf

abbrev win0_0 : Pipeline.Window sig grid0 :=
  Pipeline.Window.ofSpec (Memref.whole main_arg0) S1x8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x512 : Shape := ⟨3, ![32, 8192, 512]⟩
abbrev S32x1x512 : Shape := ⟨3, ![32, 1, 512]⟩
abbrev S512x1024 : Shape := ⟨2, ![512, 1024]⟩
abbrev S512 : Shape := ⟨1, ![512]⟩
abbrev S32x8192x1 : Shape := ⟨3, ![32, 8192, 1]⟩
abbrev S_ : Shape := ⟨0, ![]⟩
abbrev S32x1 : Shape := ⟨2, ![32, 1]⟩
abbrev S32x1x1 : Shape := ⟨3, ![32, 1, 1]⟩
abbrev S32x512 : Shape := ⟨2, ![32, 512]⟩
abbrev S32x1024 : Shape := ⟨2, ![32, 1024]⟩
abbrev S1024x512 : Shape := ⟨2, ![1024, 512]⟩
abbrev S1x512 : Shape := ⟨2, ![1, 512]⟩
abbrev S32x8192 : Shape := ⟨2, ![32, 8192]⟩

abbrev nBuf : Space → Nat
  | .hbm => 30
  | .vmem => 0
  | .smem => 0
  | _ => 0

abbrev bufTy : (tb : Table) → Fin (tcTables nBuf tb) → BufTy
  | .hbm, ⟨0, _⟩ => ⟨S32x8192x512, .f32⟩
  | .hbm, ⟨1, _⟩ => ⟨S32x1x512, .f32⟩
  | .hbm, ⟨2, _⟩ => ⟨S512x1024, .f32⟩
  | .hbm, ⟨3, _⟩ => ⟨S512, .f32⟩
  | .hbm, ⟨4, _⟩ => ⟨S32x8192x1, .f32⟩
  | .hbm, ⟨5, _⟩ => ⟨S_, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S32x1x1, .f32⟩
  | .hbm, ⟨11, _⟩ => ⟨S32x8192x1, .f32⟩
  | .hbm, ⟨12, _⟩ => ⟨S32x8192x1, .f32⟩
  | .hbm, ⟨13, _⟩ => ⟨S32x8192x1, .f32⟩
  | .hbm, ⟨14, _⟩ => ⟨S_, .f32⟩
  | .hbm, ⟨15, _⟩ => ⟨S32x1, .f32⟩
  | .hbm, ⟨16, _⟩ => ⟨S32x1x1, .f32⟩
  | .hbm, ⟨17, _⟩ => ⟨S32x8192x1, .f32⟩
  | .hbm, ⟨18, _⟩ => ⟨S32x8192x1, .f32⟩
  | .hbm, ⟨19, _⟩ => ⟨S32x1x512, .f32⟩
  | .hbm, ⟨20, _⟩ => ⟨S32x512, .f32⟩
  | .hbm, ⟨21, _⟩ => ⟨S32x512, .f32⟩
  | .hbm, ⟨22, _⟩ => ⟨S32x1024, .f32⟩
  | .hbm, ⟨23, _⟩ => ⟨S32x1024, .f32⟩
  | .hbm, ⟨24, _⟩ => ⟨S1024x512, .f32⟩
  | .hbm, ⟨25, _⟩ => ⟨S32x512, .f32⟩
  | .hbm, ⟨26, _⟩ => ⟨S1x512, .f32⟩
  | .hbm, ⟨27, _⟩ => ⟨S32x512, .f32⟩
  | .hbm, ⟨28, _⟩ => ⟨S32x512, .f32⟩
  | .hbm, ⟨29, _⟩ => ⟨S32x8192, .f32⟩
  | _, _ => ⟨S32x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S32x8192x1_S32x1_d1 : S32x8192x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x8192x1_0_1_2 : S32x1x1.BroadcastsInDim S32x8192x1 (![0, 1, 2] : Fin 3 → Fin S32x8192x1.rank)
  shapeCasts_S32x1x512_S32x512 : S32x1x512.ShapeCasts S32x512
  concatenates_S32x512_S32x512_S32x1024_d1 : Shape.Concatenates [S32x512, S32x512] S32x1024 1
  transposes_S512x1024_S1024x512_1_0 : S512x1024.Transposes [1, 0] S1024x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S32x8192x1_S32x8192 : S32x8192x1.ShapeCasts S32x8192
  dot_S32x8192x512_S32x1x512_S32x8192x1_2_2_1_1_0_0_wf : DotDims.WF S32x8192x512 S32x1x512 S32x8192x1 [2] [2] [1] [1] [0] [0]
  dot_S32x8192x1_S32x8192x512_S32x1x512_1_1_2_2_0_0_wf : DotDims.WF S32x8192x1 S32x8192x512 S32x1x512 [1] [1] [2] [2] [0] [0]
  dot_S32x1024_S1024x512_S32x512_1_0_0_1_n_n_wf : DotDims.WF S32x1024 S1024x512 S32x512 [1] [0] [0] [1] [] []

variable [Facts₀]

def dot_S32x8192x512_S32x1x512_S32x8192x1_2_2_1_1_0_0 : DotDims S32x8192x512 S32x1x512 S32x8192x1 where
  lhsContracting := [2]
  rhsContracting := [2]
  lhsNonContracting := [1]
  rhsNonContracting := [1]
  lhsBatch := [0]
  rhsBatch := [0]
  wf := dot_S32x8192x512_S32x1x512_S32x8192x1_2_2_1_1_0_0_wf
def dot_S32x8192x1_S32x8192x512_S32x1x512_1_1_2_2_0_0 : DotDims S32x8192x1 S32x8192x512 S32x1x512 where
  lhsContracting := [1]
  rhsContracting := [1]
  lhsNonContracting := [2]
  rhsNonContracting := [2]
  lhsBatch := [0]
  rhsBatch := [0]
  wf := dot_S32x8192x1_S32x8192x512_S32x1x512_1_1_2_2_0_0_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf

class Facts : Prop extends Facts₀ where

variable [Facts]
-- ==== Proof.AttnSpec.lean ====
/-
  Single-query attention over one batch, written once over plain index types.

  For a query `q : Fin 512 → EReal` and a block of rows `H : Fin 8192 → Fin 512 → EReal`:
  the score of row `l` is the inner product `∑ d, q d * H l d`; the weights are the softmax of the scores
  taken with the usual shift by the largest score (the running maximum starts from a value `lo`, which the
  programs take to be the pattern of minus infinity; nothing below depends on what it denotes); the context
  vector is the weighted sum of the rows. All arithmetic is that of the extended reals, the quotient being
  the ideal instance's `Ideal.div` and the exponential its `Ideal.exp`.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- What both programs start the running maximum from: the extended real the pattern of minus infinity denotes. -/
abbrev lo : EReal := Ideal.ofBits .f32 0xFF800000#32

/-- The score of row `l`: the inner product of the query with that row. -/
def score (q : Fin 512 → EReal) (H : Fin 8192 → Fin 512 → EReal) (l : Fin 8192) : EReal :=
  ∑ d : Fin 512, q d * H l d

/-- The largest score, folded from `lo`. -/
def top (lo : EReal) (e : Fin 8192 → EReal) : EReal :=
  (Finset.univ : Finset (Fin 8192)).fold max lo e

/-- The unnormalised weight of row `l`: the exponential of its score less the largest one. -/
def numer (lo : EReal) (e : Fin 8192 → EReal) (l : Fin 8192) : EReal :=
  Ideal.exp (e l - top lo e)

/-- The softmax weight of row `l`. -/
def weight (lo : EReal) (e : Fin 8192 → EReal) (l : Fin 8192) : EReal :=
  Ideal.div (numer lo e l) (∑ k : Fin 8192, numer lo e k)

/-- The context vector: the rows summed with their weights. -/
def context (lo : EReal) (q : Fin 512 → EReal) (H : Fin 8192 → Fin 512 → EReal) (d : Fin 512) : EReal :=
  ∑ l : Fin 8192, weight lo (score q H) l * H l d

/-- Taking the maximum with the starting value once more changes nothing: the fold is already above it. -/
theorem max_top (lo : EReal) (e : Fin 8192 → EReal) : max lo (top lo e) = top lo e :=
  max_eq_right ((Finset.le_fold_max lo).mpr (Or.inl le_rfl))

/-- The inner product does not depend on the order of the two factors. -/
theorem score_comm (q : Fin 512 → EReal) (H : Fin 8192 → Fin 512 → EReal) (l : Fin 8192) :
    (∑ d : Fin 512, H l d * q d) = score q H l :=
  Finset.sum_congr rfl fun d _ => mul_comm _ _

/-! ## The arrays of the two programs, read batch by batch -/

/-- Batch `b` of the rows array `[32, 8192, 512]`. -/
def rowsOf (x0 : (⟨3, ![32, 8192, 512]⟩ : Shape).Idx → EReal) (b : Fin 32) : Fin 8192 → Fin 512 → EReal :=
  fun l d => x0 (ix3 b l d)

/-- Batch `b` of the query array `[32, 1, 512]`. -/
def queryOf (x1 : (⟨3, ![32, 1, 512]⟩ : Shape).Idx → EReal) (b : Fin 32) : Fin 512 → EReal :=
  fun d => x1 (ix3 b (0 : Fin 1) d)

/-- The weights as the array `[32, 1, 8192]` the kernel's first output window fills. -/
def weightsArr (lo : EReal) (x0 : (⟨3, ![32, 8192, 512]⟩ : Shape).Idx → EReal) (x1 : (⟨3, ![32, 1, 512]⟩ : Shape).Idx → EReal) :
    (⟨3, ![32, 1, 8192]⟩ : Shape).Idx → EReal :=
  fun i => weight lo (score (queryOf x1 ⟨(i 0).val, (i 0).isLt⟩) (rowsOf x0 ⟨(i 0).val, (i 0).isLt⟩)) ⟨(i 2).val, (i 2).isLt⟩

/-- The weights as the matrix `[32, 8192]` both programs return. -/
def weightsMat (lo : EReal) (x0 : (⟨3, ![32, 8192, 512]⟩ : Shape).Idx → EReal) (x1 : (⟨3, ![32, 1, 512]⟩ : Shape).Idx → EReal) :
    (⟨2, ![32, 8192]⟩ : Shape).Idx → EReal :=
  fun i => weight lo (score (queryOf x1 ⟨(i 0).val, (i 0).isLt⟩) (rowsOf x0 ⟨(i 0).val, (i 0).isLt⟩)) ⟨(i 1).val, (i 1).isLt⟩

/-- The context vectors as the array `[32, 1, 512]` (the kernel's second output window; the reference's
    second matrix product). -/
def contextArr (lo : EReal) (x0 : (⟨3, ![32, 8192, 512]⟩ : Shape).Idx → EReal) (x1 : (⟨3, ![32, 1, 512]⟩ : Shape).Idx → EReal) :
    (⟨3, ![32, 1, 512]⟩ : Shape).Idx → EReal :=
  fun i => context lo (queryOf x1 ⟨(i 0).val, (i 0).isLt⟩) (rowsOf x0 ⟨(i 0).val, (i 0).isLt⟩) ⟨(i 2).val, (i 2).isLt⟩

theorem weightsArr_ix (lo : EReal) (x0 : (⟨3, ![32, 8192, 512]⟩ : Shape).Idx → EReal) (x1 : (⟨3, ![32, 1, 512]⟩ : Shape).Idx → EReal)
    (b : Fin 32) (u : Fin 1) (l : Fin 8192) :
    weightsArr lo x0 x1 (ix3 b u l) = weight lo (score (queryOf x1 b) (rowsOf x0 b)) l := rfl

theorem weightsMat_ix (lo : EReal) (x0 : (⟨3, ![32, 8192, 512]⟩ : Shape).Idx → EReal) (x1 : (⟨3, ![32, 1, 512]⟩ : Shape).Idx → EReal)
    (b : Fin 32) (l : Fin 8192) :
    weightsMat lo x0 x1 (ix2 b l) = weight lo (score (queryOf x1 b) (rowsOf x0 b)) l := rfl

theorem contextArr_ix (lo : EReal) (x0 : (⟨3, ![32, 8192, 512]⟩ : Shape).Idx → EReal) (x1 : (⟨3, ![32, 1, 512]⟩ : Shape).Idx → EReal)
    (b : Fin 32) (u : Fin 1) (d : Fin 512) :
    contextArr lo x0 x1 (ix3 b u d) = context lo (queryOf x1 b) (rowsOf x0 b) d := rfl

end Cert.Attn

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KernelPayload.lean ====
/-
  What the kernel body stores, read entry by entry at the ideal instance.

  At a grid point the body holds one batch: the rows `x0 : [1, 8192, 512]` and the query `x1 : [1, 1, 512]`.
  It forms the row of scores `E = q · Hᵀ` (a matrix product contracting the feature axis, into a zero
  accumulator), the largest score (a lane reduction by maximum), the exponentials of the shifted scores, their
  sum (a lane reduction by addition), the quotients, and the product of that row of weights with the rows.
  Read at an index these are exactly `Cert.Attn.weight` and `Cert.Attn.context` of the batch: a matrix product
  into zero is the plain sum of products over the contracted coordinate, a lane reduction over the only
  non-unit axis is a fold or a sum over that axis's coordinates, and the reshapes and the broadcast only move
  unit axes.
-/
import proofs.«131365_j50594714747318_2_alg».proof.Proof.Gen.KernelIdeal.Skeleton
import proofs.«131365_j50594714747318_2_alg».proof.Proof.AttnSpec
import proofs.«131365_j50594714747318_2_alg».proof.Proof.LibLayout
import Idealize.ShloMosaic.PureOps.Ideal.Laws
import Idealize.ShloMosaic.Lib.ValueIdx
import Idealize.ShloMosaic.Lib.ValueLayout

noncomputable section

namespace Cert.KernelIdeal.AttnValue

open Cert.KernelIdeal Cert.KernelIdeal.Gen Idealize.ShloMosaic Idealize.ShloMosaic.ValueIdx Cert.Attn Cert.LibLayout

/-- The rows of the batch held at a grid point. -/
def blockRows (x0 : Vec Ideal S1x8192x512 .f32) : Fin 8192 → Fin 512 → EReal := fun l d => x0 (ix3 (0 : Fin 1) l d)
/-- The query of that batch. -/
def blockQuery (x1 : Vec Ideal S1x1x512 .f32) : Fin 512 → EReal := fun d => x1 (ix3 (0 : Fin 1) (0 : Fin 1) d)

/-! ## The body's intermediate rows, named -/

/-- The row of scores: the query times the transposed rows, into zero. -/
def scoreRow (x0 : Vec Ideal S1x8192x512 .f32) (x1 : Vec Ideal S1x1x512 .f32) : FVec Ideal S1x8192 .f32 :=
  matmul dot_S1x512_S8192x512_S1x8192_1_1_0_0_n_n none (shapeCast S1x512 x1 shapeCasts_S1x1x512_S1x512 : FVec Ideal S1x512 .f32) (k0_pay1 x0)
    (constant S1x8192 .f32 0x00000000#32 : FVec Ideal S1x8192 .f32)

/-- The largest entry of a row, repeated along the row. -/
def maxRow (E : FVec Ideal S1x8192 .f32) : FVec Ideal S1x8192 .f32 :=
  broadcastTo S1x8192 (shapeCast S1x1 (multiReduction .maximumf [1] S1 E 0xFF800000#32 reduces_S1x8192_S1 (.inl rfl) rfl) shapeCasts_S1_S1x1) broadcasts_S1x1_S1x8192

/-- The exponentials of a row shifted by its largest entry. -/
def expRow (E : FVec Ideal S1x8192 .f32) : FVec Ideal S1x8192 .f32 := exp (subf E (maxRow E))

/-- The sum of a row, repeated along the row. -/
def sumRow (P : FVec Ideal S1x8192 .f32) : FVec Ideal S1x8192 .f32 :=
  broadcastTo S1x8192 (shapeCast S1x1 (multiReduction .add [1] S1 P 0x00000000#32 reduces_S1x8192_S1 (.inl rfl) rfl) shapeCasts_S1_S1x1) broadcasts_S1x1_S1x8192

/-- The row of weights is the quotient of the exponentials by their sum. -/
theorem pay2_eq (x0 : Vec Ideal S1x8192x512 .f32) (x1 : Vec Ideal S1x1x512 .f32) :
    k0_pay2 x0 x1 = divf (expRow (scoreRow x0 x1)) (sumRow (expRow (scoreRow x0 x1))) := rfl

/-! ## The first matrix product: its operand indices, coordinate by coordinate -/

theorem lhsA_0 (i : S1x8192.Idx) (q : dot_S1x512_S8192x512_S1x8192_1_1_0_0_n_n.contr.Idx) : (dot_S1x512_S8192x512_S1x8192_1_1_0_0_n_n.lhsIdx i q 0).val = (i 0).val := by
  unfold DotDims.lhsIdx
  rw [dif_neg (show ¬(0 : Fin S1x512.rank) ∈ dot_S1x512_S8192x512_S1x8192_1_1_0_0_n_n.lhsBatch by decide), dif_pos (show (0 : Fin S1x512.rank) ∈ dot_S1x512_S8192x512_S1x8192_1_1_0_0_n_n.lhsNonContracting by decide)]
  rfl
theorem lhsA_1 (i : S1x8192.Idx) (q : dot_S1x512_S8192x512_S1x8192_1_1_0_0_n_n.contr.Idx) : (dot_S1x512_S8192x512_S1x8192_1_1_0_0_n_n.lhsIdx i q 1).val = (q ⟨0, by decide⟩).val :=
  dot_S1x512_S8192x512_S1x8192_1_1_0_0_n_n.lhsIdx_val_of_single rfl i q
theorem rhsA_0 (i : S1x8192.Idx) (q : dot_S1x512_S8192x512_S1x8192_1_1_0_0_n_n.contr.Idx) : (dot_S1x512_S8192x512_S1x8192_1_1_0_0_n_n.rhsIdx i q 0).val = (i 1).val := by
  unfold DotDims.rhsIdx
  rw [dif_neg (show ¬(0 : Fin S8192x512.rank) ∈ dot_S1x512_S8192x512_S1x8192_1_1_0_0_n_n.rhsBatch by decide), dif_pos (show (0 : Fin S8192x512.rank) ∈ dot_S1x512_S8192x512_S1x8192_1_1_0_0_n_n.rhsNonContracting by decide)]
  rfl
theorem rhsA_1 (i : S1x8192.Idx) (q : dot_S1x512_S8192x512_S1x8192_1_1_0_0_n_n.contr.Idx) : (dot_S1x512_S8192x512_S1x8192_1_1_0_0_n_n.rhsIdx i q 1).val = (q ⟨0, by decide⟩).val :=
  dot_S1x512_S8192x512_S1x8192_1_1_0_0_n_n.rhsIdx_val_of_single rfl i q

/-- The score of row `l` is the inner product of the query with that row. -/
theorem scoreRow_apply (x0 : Vec Ideal S1x8192x512 .f32) (x1 : Vec Ideal S1x1x512 .f32) (l : Fin 8192) :
    scoreRow x0 x1 (ix2 (0 : Fin 1) l) = score (blockQuery x1) (blockRows x0) l := by
  unfold scoreRow
  simp only [matmul]
  rw [Ideal.matmul_constant_zero_apply, ← Equiv.sum_comp (contrEquiv1 dot_S1x512_S8192x512_S1x8192_1_1_0_0_n_n 512 rfl rfl).symm]
  unfold score
  refine Finset.sum_congr rfl fun k _ => ?_
  have hk := contrEquiv1_symm_val dot_S1x512_S8192x512_S1x8192_1_1_0_0_n_n 512 rfl rfl k
  have el : dot_S1x512_S8192x512_S1x8192_1_1_0_0_n_n.lhsIdx (ix2 (0 : Fin 1) l) ((contrEquiv1 dot_S1x512_S8192x512_S1x8192_1_1_0_0_n_n 512 rfl rfl).symm k) = ix2 (0 : Fin 1) k := funext fun a => Fin.ext (by
    match a with
    | ⟨0, _⟩ => exact lhsA_0 _ _
    | ⟨1, _⟩ => exact (lhsA_1 _ _).trans hk)
  have er : dot_S1x512_S8192x512_S1x8192_1_1_0_0_n_n.rhsIdx (ix2 (0 : Fin 1) l) ((contrEquiv1 dot_S1x512_S8192x512_S1x8192_1_1_0_0_n_n 512 rfl rfl).symm k) = ix2 l k := funext fun a => Fin.ext (by
    match a with
    | ⟨0, _⟩ => exact rhsA_0 _ _
    | ⟨1, _⟩ => exact (rhsA_1 _ _).trans hk)
  rw [el, er]
  exact congrArg₂ (· * ·) (shapeCast_1ab_ab_apply x1 shapeCasts_S1x1x512_S1x512 (0 : Fin 1) k)
    (shapeCast_1ab_ab_apply x0 shapeCasts_S1x8192x512_S8192x512 l k)

/-! ## The two lane reductions and the broadcast -/

/-- The index a lane reduction of a `[1, 8192]` row inserts at coordinate `k`. -/
theorem lift_row (k : Fin 8192) : reduces_S1x8192_S1.lift (ix1 (0 : Fin 1)) k = ix2 (0 : Fin 1) k :=
  funext fun a => Fin.ext (by match a with | ⟨0, _⟩ => rfl | ⟨1, _⟩ => rfl)

/-- The repeated largest entry is the fold of the row by maximum. -/
theorem maxRow_apply (E : FVec Ideal S1x8192 .f32) (l : Fin 8192) :
    maxRow E (ix2 (0 : Fin 1) l) = top lo (fun k => E (ix2 (0 : Fin 1) k)) := by
  unfold maxRow
  refine (broadcastTo_a1_ab_apply _ broadcasts_S1x1_S1x8192 (0 : Fin 1) l).trans ?_
  refine (shapeCast_a_a1_apply _ shapeCasts_S1_S1x1 (0 : Fin 1) (0 : Fin 1)).trans ?_
  refine (Ideal.multiReduction_maximumf_single E 0xFF800000#32 reduces_S1x8192_S1 (.inl rfl) rfl (ix1 (0 : Fin 1))).trans ?_
  unfold top
  refine Finset.fold_congr fun k _ => ?_
  exact congrArg E (lift_row k)

/-- The exponentials of the shifted row, entry by entry. -/
theorem expRow_apply (E : FVec Ideal S1x8192 .f32) (l : Fin 8192) :
    expRow E (ix2 (0 : Fin 1) l) = numer lo (fun k => E (ix2 (0 : Fin 1) k)) l := by
  unfold expRow numer
  show Ideal.exp (E (ix2 (0 : Fin 1) l) - maxRow E (ix2 (0 : Fin 1) l)) = _
  rw [maxRow_apply]

/-- The repeated sum is the sum of the row. -/
theorem sumRow_apply (P : FVec Ideal S1x8192 .f32) (l : Fin 8192) :
    sumRow P (ix2 (0 : Fin 1) l) = ∑ k : Fin 8192, P (ix2 (0 : Fin 1) k) := by
  unfold sumRow
  refine (broadcastTo_a1_ab_apply _ broadcasts_S1x1_S1x8192 (0 : Fin 1) l).trans ?_
  refine (shapeCast_a_a1_apply _ shapeCasts_S1_S1x1 (0 : Fin 1) (0 : Fin 1)).trans ?_
  refine (Ideal.multiReduction_add_single P 0x00000000#32 reduces_S1x8192_S1 (.inl rfl) rfl (ix1 (0 : Fin 1))).trans ?_
  refine Finset.sum_congr rfl fun k _ => ?_
  exact congrArg P (lift_row k)

/-- The row of weights, entry by entry: the softmax weight of the batch's scores. -/
theorem pay2_apply (x0 : Vec Ideal S1x8192x512 .f32) (x1 : Vec Ideal S1x1x512 .f32) (l : Fin 8192) :
    k0_pay2 x0 x1 (ix2 (0 : Fin 1) l) = weight lo (score (blockQuery x1) (blockRows x0)) l := by
  rw [pay2_eq]
  show Ideal.div (expRow (scoreRow x0 x1) (ix2 (0 : Fin 1) l)) (sumRow (expRow (scoreRow x0 x1)) (ix2 (0 : Fin 1) l)) = _
  rw [expRow_apply, sumRow_apply]
  have hs : (fun k => scoreRow x0 x1 (ix2 (0 : Fin 1) k)) = score (blockQuery x1) (blockRows x0) :=
    funext fun k => scoreRow_apply x0 x1 k
  unfold weight
  rw [← hs]
  exact congrArg (Ideal.div _) (Finset.sum_congr rfl fun k _ => expRow_apply _ k)

/-- What the first output window's buffer receives: the weights, under a leading unit axis. -/
theorem pay3_apply (x0 : Vec Ideal S1x8192x512 .f32) (x1 : Vec Ideal S1x1x512 .f32) (u v : Fin 1) (l : Fin 8192) :
    k0_pay3 x0 x1 (ix3 u v l) = weight lo (score (blockQuery x1) (blockRows x0)) l := by
  obtain rfl : v = 0 := Subsingleton.elim _ _
  exact (shapeCast_ab_1ab_apply (k0_pay2 x0 x1) shapeCasts_S1x8192_S1x1x8192 u (0 : Fin 1) l).trans (pay2_apply x0 x1 l)

/-! ## The second matrix product -/

theorem lhsB_0 (i : S1x512.Idx) (q : dot_S1x8192_S8192x512_S1x512_1_0_0_1_n_n.contr.Idx) : (dot_S1x8192_S8192x512_S1x512_1_0_0_1_n_n.lhsIdx i q 0).val = (i 0).val := by
  unfold DotDims.lhsIdx
  rw [dif_neg (show ¬(0 : Fin S1x8192.rank) ∈ dot_S1x8192_S8192x512_S1x512_1_0_0_1_n_n.lhsBatch by decide), dif_pos (show (0 : Fin S1x8192.rank) ∈ dot_S1x8192_S8192x512_S1x512_1_0_0_1_n_n.lhsNonContracting by decide)]
  rfl
theorem lhsB_1 (i : S1x512.Idx) (q : dot_S1x8192_S8192x512_S1x512_1_0_0_1_n_n.contr.Idx) : (dot_S1x8192_S8192x512_S1x512_1_0_0_1_n_n.lhsIdx i q 1).val = (q ⟨0, by decide⟩).val :=
  dot_S1x8192_S8192x512_S1x512_1_0_0_1_n_n.lhsIdx_val_of_single rfl i q
theorem rhsB_0 (i : S1x512.Idx) (q : dot_S1x8192_S8192x512_S1x512_1_0_0_1_n_n.contr.Idx) : (dot_S1x8192_S8192x512_S1x512_1_0_0_1_n_n.rhsIdx i q 0).val = (q ⟨0, by decide⟩).val :=
  dot_S1x8192_S8192x512_S1x512_1_0_0_1_n_n.rhsIdx_val_of_single rfl i q
theorem rhsB_1 (i : S1x512.Idx) (q : dot_S1x8192_S8192x512_S1x512_1_0_0_1_n_n.contr.Idx) : (dot_S1x8192_S8192x512_S1x512_1_0_0_1_n_n.rhsIdx i q 1).val = (i 1).val := by
  unfold DotDims.rhsIdx
  rw [dif_neg (show ¬(1 : Fin S8192x512.rank) ∈ dot_S1x8192_S8192x512_S1x512_1_0_0_1_n_n.rhsBatch by decide), dif_pos (show (1 : Fin S8192x512.rank) ∈ dot_S1x8192_S8192x512_S1x512_1_0_0_1_n_n.rhsNonContracting by decide)]
  rfl

/-- What the second output window's buffer receives: the context vector of the batch, under a leading unit axis. -/
theorem pay4_apply (x0 : Vec Ideal S1x8192x512 .f32) (x1 : Vec Ideal S1x1x512 .f32) (u v : Fin 1) (d : Fin 512) :
    k0_pay4 x0 x1 (ix3 u v d) = context lo (blockQuery x1) (blockRows x0) d := by
  obtain rfl : v = 0 := Subsingleton.elim _ _
  refine (shapeCast_ab_1ab_apply (matmul dot_S1x8192_S8192x512_S1x512_1_0_0_1_n_n none (k0_pay2 x0 x1) (k0_pay1 x0) (constant S1x512 .f32 0x00000000#32 : FVec Ideal S1x512 .f32))
    shapeCasts_S1x512_S1x1x512 u (0 : Fin 1) d).trans ?_
  simp only [matmul]
  rw [Ideal.matmul_constant_zero_apply, ← Equiv.sum_comp (contrEquiv1 dot_S1x8192_S8192x512_S1x512_1_0_0_1_n_n 8192 rfl rfl).symm]
  unfold context
  refine Finset.sum_congr rfl fun k _ => ?_
  have hk := contrEquiv1_symm_val dot_S1x8192_S8192x512_S1x512_1_0_0_1_n_n 8192 rfl rfl k
  have el : dot_S1x8192_S8192x512_S1x512_1_0_0_1_n_n.lhsIdx (ix2 (0 : Fin 1) d) ((contrEquiv1 dot_S1x8192_S8192x512_S1x512_1_0_0_1_n_n 8192 rfl rfl).symm k) = ix2 (0 : Fin 1) k := funext fun a => Fin.ext (by
    match a with
    | ⟨0, _⟩ => exact lhsB_0 _ _
    | ⟨1, _⟩ => exact (lhsB_1 _ _).trans hk)
  have er : dot_S1x8192_S8192x512_S1x512_1_0_0_1_n_n.rhsIdx (ix2 (0 : Fin 1) d) ((contrEquiv1 dot_S1x8192_S8192x512_S1x512_1_0_0_1_n_n 8192 rfl rfl).symm k) = ix2 k d := funext fun a => Fin.ext (by
    match a with
    | ⟨0, _⟩ => exact (rhsB_0 _ _).trans hk
    | ⟨1, _⟩ => exact rhsB_1 _ _)
  rw [el, er]
  exact congrArg₂ (· * ·) (pay2_apply x0 x1 k) (shapeCast_1ab_ab_apply x0 shapeCasts_S1x8192x512_S8192x512 k d)

end Cert.KernelIdeal.AttnValue

end
-- ==== Proof.KernelArrays.lean ====
/-
  From what each grid point writes back to the two output arrays after the kernel.

  Grid point `t` holds batch `t`: its rows block is rows `(t, ·, ·)` of the rows array and its query block is
  row `(t, 0, ·)` of the query array. What the body leaves in the first output window's buffer is therefore block
  `(t, 0, ·)` of `Cert.Attn.weightsArr` of the two arrays as the region finds them, and in the second window's
  buffer block `(t, 0, ·)` of `Cert.Attn.contextArr`. The 32 blocks `(t, 0, ·)` cover each output array (the
  point that covers index `(b, 0, l)` is `b`), so after the region the arrays are those two functions.
-/
import proofs.«131365_j50594714747318_2_alg».proof.Proof.Gen.KernelIdeal.Frame
import proofs.«131365_j50594714747318_2_alg».proof.Proof.KernelPayload
import Idealize.ShloMosaic.Lib.Pipeline.Value

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ)

/-! ## The two array functions at an index whose coordinates are known -/

theorem weightsArr_at (x0 : (⟨3, ![32, 8192, 512]⟩ : Shape).Idx → EReal) (x1 : (⟨3, ![32, 1, 512]⟩ : Shape).Idx → EReal)
    (i : (⟨3, ![32, 1, 8192]⟩ : Shape).Idx) (b : Fin 32) (l : Fin 8192) (hb : (i 0).val = b.val) (hl : (i 2).val = l.val) :
    weightsArr lo x0 x1 i = weight lo (score (queryOf x1 b) (rowsOf x0 b)) l := by
  have eb : (⟨(i 0).val, (i 0).isLt⟩ : Fin 32) = b := Fin.ext hb
  have el : (⟨(i 2).val, (i 2).isLt⟩ : Fin 8192) = l := Fin.ext hl
  unfold weightsArr
  rw [eb, el]

theorem contextArr_at (x0 : (⟨3, ![32, 8192, 512]⟩ : Shape).Idx → EReal) (x1 : (⟨3, ![32, 1, 512]⟩ : Shape).Idx → EReal)
    (i : (⟨3, ![32, 1, 512]⟩ : Shape).Idx) (b : Fin 32) (d : Fin 512) (hb : (i 0).val = b.val) (hd : (i 2).val = d.val) :
    contextArr lo x0 x1 i = context lo (queryOf x1 b) (rowsOf x0 b) d := by
  have eb : (⟨(i 0).val, (i 0).isLt⟩ : Fin 32) = b := Fin.ext hb
  have ed : (⟨(i 2).val, (i 2).isLt⟩ : Fin 512) = d := Fin.ext hd
  unfold contextArr
  rw [eb, ed]

/-! ## The body's two stores, entry by entry, over any pair of blocks -/

theorem zeros3 : (![0, 0, 0] : Fin 3 → Nat) = fun _ => 0 := funext fun a => by fin_cases a <;> rfl

theorem out2_apply (x0 : Vec Ideal S1x8192x512 .f32) (x1 : Vec Ideal S1x1x512 .f32) (j : S1x1x8192.Idx) :
    out0_2 x0 x1 j = weight lo (score (blockQuery x1) (blockRows x0)) ⟨(j 2).val, (j 2).isLt⟩ := by
  unfold out0_2
  rw [View.canon_unit_zero zeros3]
  simp only [View.ld_unit_zero (S := S1x8192x512) zeros3, View.ld_unit_zero (S := S1x1x512) zeros3]
  obtain ⟨u, v, l, rfl⟩ : ∃ (u : Fin 1) (v : Fin 1) (l : Fin 8192), j = ix3 u v l := ⟨j 0, j 1, j 2, eq_ix3 j⟩
  exact pay3_apply x0 x1 u v l

theorem out3_apply (x0 : Vec Ideal S1x8192x512 .f32) (x1 : Vec Ideal S1x1x512 .f32) (j : S1x1x512.Idx) :
    out0_3 x0 x1 j = context lo (blockQuery x1) (blockRows x0) ⟨(j 2).val, (j 2).isLt⟩ := by
  unfold out0_3
  rw [View.canon_unit_zero zeros3]
  simp only [View.ld_unit_zero (S := S1x8192x512) zeros3, View.ld_unit_zero (S := S1x1x512) zeros3]
  obtain ⟨u, v, d, rfl⟩ : ∃ (u : Fin 1) (v : Fin 1) (d : Fin 512), j = ix3 u v d := ⟨j 0, j 1, j 2, eq_ix3 j⟩
  exact pay4_apply x0 x1 u v d

/-! ## Where each window's block sits -/

/-- Every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch a grid point holds. -/
def batchOf (t : Fin cfg0.N) : Fin 32 := Fin.cast N_0 t

/-- The rows block at point `t` is batch `t` of the rows array. -/
theorem rows_block (c : Dev nD) (t : Fin cfg0.N) :
    blockRows (iblk m c 0 t) = rowsOf (V m c main_arg0) (batchOf t) := by
  funext l d
  show V m c main_arg0 (((cfg0.win 0).blk t).view.emb (ix3 (0 : Fin 1) l d)) = V m c main_arg0 (ix3 (batchOf t) l d)
  obtain ⟨e0, e1, e2, -⟩ := idx_facts t
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 8192 + 1 * l.val = l.val; omega
  | ⟨2, _⟩ => show win0_0.index t (2 : Fin 3) * 512 + 1 * d.val = d.val; omega

/-- The query block at point `t` is batch `t` of the query array. -/
theorem query_block (c : Dev nD) (t : Fin cfg0.N) :
    blockQuery (iblk m c 1 t) = queryOf (V m c main_arg1) (batchOf t) := by
  funext d
  show V m c main_arg1 (((cfg0.win 1).blk t).view.emb (ix3 (0 : Fin 1) (0 : Fin 1) d)) = V m c main_arg1 (ix3 (batchOf t) (0 : Fin 1) d)
  obtain ⟨-, -, -, e0, e1, e2, -⟩ := idx_facts t
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * d.val = d.val; omega

/-! ## What a point writes back -/

/-- Point `t` writes back block `t` of the weights array. -/
theorem flushed2_eq (c : Dev nD) (t : Fin cfg0.N) :
    (dats m 0 c).flushed 2 t
      = ((cfg0.win 2).blk t).view.read (Elt Ideal) (weightsArr lo (V m c main_arg0) (V m c main_arg1)) := by
  show (cfg0.win 2).cut (grid0.coords t) ((dats m 0 c).after 2 t) = _
  rw [after0_2]
  funext j
  show out0_2 (iblk m c 0 t) (iblk m c 1 t) j
    = weightsArr lo (V m c main_arg0) (V m c main_arg1) (((cfg0.win 2).blk t).view.emb j)
  rw [out2_apply, rows_block, query_block]
  obtain ⟨-, -, -, -, -, -, e0, e1, e2, -⟩ := idx_facts t
  refine (weightsArr_at _ _ _ (batchOf t) _ ?_ ?_).symm
  · show win0_2.index t (0 : Fin 3) * 1 + 1 * (j 0).val = t.val
    have hj : (j 0).val < 1 := (j 0).isLt
    omega
  · show win0_2.index t (2 : Fin 3) * 8192 + 1 * (j 2).val = (j 2).val
    omega

/-- Point `t` writes back block `t` of the context array. -/
theorem flushed3_eq (c : Dev nD) (t : Fin cfg0.N) :
    (dats m 0 c).flushed 3 t
      = ((cfg0.win 3).blk t).view.read (Elt Ideal) (contextArr lo (V m c main_arg0) (V m c main_arg1)) := by
  show (cfg0.win 3).cut (grid0.coords t) ((dats m 0 c).after 3 t) = _
  rw [after0_3]
  funext j
  show out0_3 (iblk m c 0 t) (iblk m c 1 t) j
    = contextArr lo (V m c main_arg0) (V m c main_arg1) (((cfg0.win 3).blk t).view.emb j)
  rw [out3_apply, rows_block, query_block]
  obtain ⟨-, -, -, -, -, -, -, -, -, e0, e1, e2⟩ := idx_facts t
  refine (contextArr_at _ _ _ (batchOf t) _ ?_ ?_).symm
  · show win0_3.index t (0 : Fin 3) * 1 + 1 * (j 0).val = t.val
    have hj : (j 0).val < 1 := (j 0).isLt
    omega
  · show win0_3.index t (2 : Fin 3) * 512 + 1 * (j 2).val = (j 2).val
    omega

/-! ## The blocks cover the arrays -/

theorem mem_blk2 (t : Fin cfg0.N) (i : S32x1x8192.Idx) :
    i ∈ ((cfg0.win 2).blk t).view.set ↔ ∀ a : Fin 3, win0_2.index t a * S1x1x8192.size a ≤ (i a).val
      ∧ (i a).val < win0_2.index t a * S1x1x8192.size a + S1x1x8192.size a := by
  show i ∈ ((View.whole main_v0_0).slice (win0_2.rect t)).set ↔ _
  rw [View.set_slice_whole, Rect.mem_set_unit]
  exact Iff.rfl

theorem mem_blk3 (t : Fin cfg0.N) (i : S32x1x512.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v0_1).slice (win0_3.rect t)).set ↔ _
  rw [View.set_slice_whole, Rect.mem_set_unit]
  exact Iff.rfl

/-- The point that covers index `(b, 0, l)` of the weights array is `b`. -/
theorem cover2 (i : S32x1x8192.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 8192 := (i 2).isLt
  refine ⟨Fin.cast N_0.symm ⟨(i 0).val, h0⟩, flush0_2 _, ?_⟩
  rw [mem_blk2]
  obtain ⟨-, -, -, -, -, -, e0, e1, e2, -⟩ := idx_facts (Fin.cast N_0.symm ⟨(i 0).val, h0⟩)
  have e0' : win0_2.index (Fin.cast N_0.symm ⟨(i 0).val, h0⟩) (0 : Fin 3) = (i 0).val := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 8192 ≤ (i 2).val ∧ (i 2).val < win0_2.index _ (2 : Fin 3) * 8192 + 8192; omega

/-- The point that covers index `(b, 0, d)` of the context array is `b`. -/
theorem cover3 (i : S32x1x512.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 512 := (i 2).isLt
  refine ⟨Fin.cast N_0.symm ⟨(i 0).val, h0⟩, flush0_3 _, ?_⟩
  rw [mem_blk3]
  obtain ⟨-, -, -, -, -, -, -, -, -, e0, e1, e2⟩ := idx_facts (Fin.cast N_0.symm ⟨(i 0).val, h0⟩)
  have e0' : win0_3.index (Fin.cast N_0.symm ⟨(i 0).val, h0⟩) (0 : Fin 3) = (i 0).val := e0
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 512 ≤ (i 2).val ∧ (i 2).val < win0_3.index _ (2 : Fin 3) * 512 + 512; omega

/-! ## The two arrays after the region -/

/-- The first output array after the region: the weights of every batch. -/
theorem final2 (c : Dev nD) :
    (dats m 0 c).arrAt 2 cfg0.N = weightsArr lo (V m c main_arg0) (V m c main_arg1) :=
  (dats m 0 c).arrAt_eq_of_cover 2 (weightsArr lo (V m c main_arg0) (V m c main_arg1)) (fun t _ => flushed2_eq m c t) cover2

/-- The second output array after the region: the context vector of every batch. -/
theorem final3 (c : Dev nD) :
    (dats m 0 c).arrAt 3 cfg0.N = contextArr lo (V m c main_arg0) (V m c main_arg1) :=
  (dats m 0 c).arrAt_eq_of_cover 3 (contextArr lo (V m c main_arg0) (V m c main_arg1)) (fun t _ => flushed3_eq m c t) cover3

end Cert.KernelIdeal.AttnValue

end
-- ==== Proof.KernelRun.lean ====
/-
  The kernel program's two results.

  After the region the program reshapes the weights array `[32, 1, 8192]` to the matrix `[32, 8192]` (its first
  result), and passes the context array and the query array through the projection: both reshaped to
  `[32, 512]`, joined along the feature axis, the hyperbolic tangent, the product with the transposed weight
  matrix, the bias added (its second result). The projection is kept as ONE function `proj` of four arrays and
  never opened: the reference applies the same function, and the two programs' results are equal because the
  arrays going in are.
-/
import proofs.«131365_j50594714747318_2_alg».proof.Proof.KernelArrays
import proofs.«131365_j50594714747318_2_alg».proof.Proof.LibLayout
import Idealize.ShloMosaic.Lib.StableHlo.Run

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.StableHlo Idealize.ShloMosaic.ValueIdx Cert.Attn Cert.LibLayout
open Idealize.ShloMosaic.Pipeline (Dat)

/-- The projection after the attention: context vectors and queries side by side, `tanh`, the linear layer. -/
def proj (ctx : FVec Ideal S32x1x512 .f32) (q : FVec Ideal S32x1x512 .f32) (W : FVec Ideal S512x1024 .f32)
    (bias : FVec Ideal S512 .f32) : FVec Ideal S32x512 .f32 :=
  addf
    (Host.dotGeneral (F := Ideal) dot_S32x1024_S1024x512_S32x512_1_0_0_1_n_n none
      (Host.tanh (F := Ideal)
        (concatenate S32x1024 1
          [⟨S32x512, (shapeCast S32x512 ctx shapeCasts_S32x1x512_S32x512 : FVec Ideal S32x512 .f32)⟩,
            ⟨S32x512, (shapeCast S32x512 q shapeCasts_S32x1x512_S32x512 : FVec Ideal S32x512 .f32)⟩]
          concatenates_S32x512_S32x512_S32x1024_d1 : FVec Ideal S32x1024 .f32))
      (transpose S1024x512 [1, 0] W transposes_S512x1024_S1024x512_1_0 : FVec Ideal S1024x512 .f32))
    (broadcastInDim S32x512 ![0, 1] bcast_S1x512_S32x512_0_1
      (broadcastInDim S1x512 ![1] bcast_S512_S1x512_1 bias : FVec Ideal S1x512 .f32) : FVec Ideal S32x512 .f32)

variable (m : (ℓ : Loc nD τ sig) → Buf (Elt Ideal) ℓ) (ρ : Dev nD → PrngReg)

/-- The buffers as the region leaves them: the pipeline's arrays at what the grid wrote, the rest untouched. -/
abbrev afterRegion (c : Dev nD) : Valuation τ sig (Elt Ideal) :=
  Pipeline.withArrays (cfgs 0).spec c (V0 m c) fun w => (dats m 0 c).arrAt w (cfgs 0).N

theorem after_weights (c : Dev nD) :
    afterRegion m c (Proc.devRef .tc main_v0_0)
      = weightsArr lo (m ((c : Thread nD τ).loc main_arg0)) (m ((c : Thread nD τ).loc main_arg1)) :=
  (Pipeline.withArrays_arr spec0 launch0.win.arr_inj c _ _ 2).trans (final2 m c)

theorem after_context (c : Dev nD) :
    afterRegion m c (Proc.devRef .tc main_v0_1)
      = contextArr lo (m ((c : Thread nD τ).loc main_arg0)) (m ((c : Thread nD τ).loc main_arg1)) :=
  (Pipeline.withArrays_arr spec0 launch0.win.arr_inj c _ _ 3).trans (final3 m c)

theorem after_query (c : Dev nD) :
    afterRegion m c (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))

theorem after_W (c : Dev nD) :
    afterRegion m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)

theorem after_bias (c : Dev nD) :
    afterRegion m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- The first result is the weights array reshaped. -/
theorem tail_v1 (c : Dev nD) :
    (Pipeline.afterTail₀ cfgs (dats m) 0 (V0 m) [hostOps1] c main_v1 : S32x8192.Idx → EReal)
      = shapeCast S32x8192 (afterRegion m c (Proc.devRef .tc main_v0_0)) shapeCasts_S32x1x8192_S32x8192 := by
  unfold Pipeline.afterTail₀
  show StableHlo.after hostOps1 _ (Proc.devRef .tc main_v1) = _
  after_results
  rfl

/-- The second result is the projection of what the region left and the untouched arguments. -/
theorem tail_v10 (c : Dev nD) :
    (Pipeline.afterTail₀ cfgs (dats m) 0 (V0 m) [hostOps1] c main_v10 : S32x512.Idx → EReal)
      = proj (afterRegion m c (Proc.devRef .tc main_v0_1)) (afterRegion m c (Proc.devRef .tc main_arg1))
          (afterRegion m c (Proc.devRef .tc main_arg2)) (afterRegion m c (Proc.devRef .tc main_arg3)) := by
  unfold Pipeline.afterTail₀
  show StableHlo.after hostOps1 _ (Proc.devRef .tc main_v10) = _
  after_results
  rfl

/-- The weights array `[32, 1, 8192]` reshaped to `[32, 8192]` is the weights matrix. -/
theorem reshape_weights (x0 : (⟨3, ![32, 8192, 512]⟩ : Shape).Idx → EReal) (x1 : (⟨3, ![32, 1, 512]⟩ : Shape).Idx → EReal) :
    shapeCast S32x8192 (weightsArr lo x0 x1) shapeCasts_S32x1x8192_S32x8192 = weightsMat lo x0 x1 := by
  funext i
  obtain ⟨b, l, rfl⟩ : ∃ (b : Fin 32) (l : Fin 8192), i = ix2 b l := ⟨i 0, i 1, eq_ix2 i⟩
  exact shapeCast_abc_nc_apply (weightsArr lo x0 x1) shapeCasts_S32x1x8192_S32x8192 b (0 : Fin 1) l b (by simp)

theorem result_v1 (c : Dev nD) :
    (Pipeline.afterTail₀ cfgs (dats m) 0 (V0 m) [hostOps1] c main_v1 : S32x8192.Idx → EReal)
      = weightsMat lo (m ((c : Thread nD τ).loc main_arg0)) (m ((c : Thread nD τ).loc main_arg1)) := by
  rw [tail_v1, after_weights]
  exact reshape_weights _ _

theorem result_v10 (c : Dev nD) :
    (Pipeline.afterTail₀ cfgs (dats m) 0 (V0 m) [hostOps1] c main_v10 : S32x512.Idx → EReal)
      = proj (contextArr lo (m ((c : Thread nD τ).loc main_arg0)) (m ((c : Thread nD τ).loc main_arg1)))
          (m ((c : Thread nD τ).loc main_arg1)) (m ((c : Thread nD τ).loc main_arg2)) (m ((c : Thread nD τ).loc main_arg3)) := by
  rw [tail_v10, after_context, after_query, after_W, after_bias]

/-- Every weakly fair execution of the kernel program terminates with the weights matrix in its first result, the
    projection of the context vectors in its second, and its arguments as launched. -/
theorem run : θ_run defs (onTc (τ := τ) (main (F := Ideal))) ⟨m, fun _ => 0, ρ⟩ fun r => ∀ c : Dev nD,
      r.2.mem ((c.tc : Thread nD τ).loc main_v1)
        = weightsMat lo (m ((c.tc : Thread nD τ).loc main_arg0)) (m ((c.tc : Thread nD τ).loc main_arg1))
      ∧ r.2.mem ((c.tc : Thread nD τ).loc main_v10)
        = proj (contextArr lo (m ((c.tc : Thread nD τ).loc main_arg0)) (m ((c.tc : Thread nD τ).loc main_arg1)))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v1 (Pipeline.mem_restRefs_of main_v1 (by decide) (by decide))).trans (result_v1 m c),
      ((h c).2 main_v10 (Pipeline.mem_restRefs_of main_v10 (by decide) (by decide))).trans (result_v10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.AttnValue

end
-- ==== Proof.RefValue.lean ====
/-
  The reference, stage by stage, read at coordinates.

  The reference forms the scores of every batch by one batched matrix product (rows times query, so each
  product has its factors in the other order than the kernel's: the inner product is the same), takes the
  largest score of a batch by a reduction that starts from minus infinity and then once more the maximum with
  minus infinity (which changes nothing), exponentiates the shifted scores, sums them from zero, divides, and
  contracts the weights with the rows. Read at an index each stage is the corresponding function of
  `Cert.Attn` of that batch.
-/
import proofs.«131365_j50594714747318_2_alg».proof.Proof.Gen.ReferenceIdeal.Read
import proofs.«131365_j50594714747318_2_alg».proof.Proof.AttnSpec
import Idealize.ShloMosaic.PureOps.Ideal.Laws
import Idealize.ShloMosaic.PureOps.Reduce
import Idealize.ShloMosaic.Lib.ValueIdx

noncomputable section

namespace Cert.ReferenceIdeal.AttnValue

open Cert.ReferenceIdeal Cert.ReferenceIdeal.Gen Cert.ReferenceIdeal.Read Idealize.ShloMosaic Idealize.ShloMosaic.ValueIdx Cert.Attn

variable (x0 : (⟨S32x8192x512, .f32⟩ : BufTy).Contents (Elt Ideal)) (x1 : (⟨S32x1x512, .f32⟩ : BufTy).Contents (Elt Ideal))

/-- The scores: the batched product of the rows with the query is the inner product, factors swapped. -/
theorem v0_ix (b : Fin 32) (l : Fin 8192) :
    val_main_v0 (F := Ideal) x0 x1 (ix3 b l (0 : Fin 1)) = score (queryOf x1 b) (rowsOf x0 b) l := by
  rw [val_main_v0_apply]
  refine Eq.trans ?_ (score_comm (queryOf x1 b) (rowsOf x0 b) l)
  refine Finset.sum_congr rfl fun k _ => ?_
  have el : lidx_main_v0 (ix3 b l (0 : Fin 1)) k = ix3 b l k :=
    funext fun a => Fin.ext (by match a with | ⟨0, _⟩ => rfl | ⟨1, _⟩ => rfl | ⟨2, _⟩ => rfl)
  have er : ridx_main_v0 (ix3 b l (0 : Fin 1)) k = ix3 b (0 : Fin 1) k :=
    funext fun a => Fin.ext (by match a with | ⟨0, _⟩ => rfl | ⟨1, _⟩ => rfl | ⟨2, _⟩ => rfl)
  rw [el, er]
  rfl

theorem reduces_rows : S32x8192x1.Reduces [1] S32x1 := by decide

/-- The index the reductions over the rows axis insert at coordinate `k`. -/
theorem lift_rows (b : Fin 32) (k : Fin 8192) :
    reduces_rows.lift (ix2 b (0 : Fin 1)) k = ix3 b k (0 : Fin 1) :=
  funext fun a => Fin.ext (by match a with | ⟨0, _⟩ => rfl | ⟨1, _⟩ => rfl | ⟨2, _⟩ => rfl)

/-- The largest score of a batch: the reduction from minus infinity, and once more the maximum with it. -/
theorem v3_ix (b : Fin 32) :
    val_main_v3 (F := Ideal) x0 x1 (ix2 b (0 : Fin 1)) = top lo (score (queryOf x1 b) (rowsOf x0 b)) := by
  rw [val_main_v3_apply, val_main_v2_apply, val_main_cst_0_apply]
  have h1 : val_main_v1 (F := Ideal) x0 x1 (ix2 b (0 : Fin 1)) = top lo (score (queryOf x1 b) (rowsOf x0 b)) := by
    unfold val_main_v1
    refine (Host.reduce_eq_fold_single (α := Ideal .f32) (FloatOps.maximumf (F := Ideal) (φ := .f32)) (val_main_v0 (F := Ideal) x0 x1)
      (val_main_cst (F := Ideal)) reducesTo_S32x8192x1_S32x1_d1 reduces_rows h_S_ (ix2 b (0 : Fin 1))).trans ?_
    unfold top
    show (Finset.univ : Finset (Fin 8192)).fold max lo
      (fun k => val_main_v0 (F := Ideal) x0 x1 (reduces_rows.lift (ix2 b (0 : Fin 1)) k)) = _
    refine Finset.fold_congr fun k _ => ?_
    exact (congrArg (val_main_v0 (F := Ideal) x0 x1) (lift_rows b k)).trans (v0_ix x0 x1 b k)
  rw [h1]
  exact max_top lo _

/-- The exponential of a shifted score. -/
theorem v7_ix (b : Fin 32) (l : Fin 8192) :
    val_main_v7 (F := Ideal) x0 x1 (ix3 b l (0 : Fin 1)) = numer lo (score (queryOf x1 b) (rowsOf x0 b)) l := by
  rw [val_main_v7_apply, val_main_v6_apply, val_main_v5_apply, val_main_v4_apply, v0_ix]
  have e : idx_main_v4 (idx_main_v5 (ix3 b l (0 : Fin 1))) = ix2 b (0 : Fin 1) :=
    funext fun a => Fin.ext (by match a with | ⟨0, _⟩ => rfl | ⟨1, _⟩ => rfl)
  rw [e, v3_ix]
  rfl

/-- The sum of a batch's exponentials, from zero. -/
theorem v8_ix (b : Fin 32) :
    val_main_v8 (F := Ideal) x0 x1 (ix2 b (0 : Fin 1)) = ∑ k : Fin 8192, numer lo (score (queryOf x1 b) (rowsOf x0 b)) k := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 b (0 : Fin 1)) k = ix3 b k (0 : Fin 1) :=
    funext fun a => Fin.ext (by match a with | ⟨0, _⟩ => rfl | ⟨1, _⟩ => rfl | ⟨2, _⟩ => rfl)
  rw [e, v7_ix]

/-- The weights. -/
theorem v11_ix (b : Fin 32) (l : Fin 8192) :
    val_main_v11 (F := Ideal) x0 x1 (ix3 b l (0 : Fin 1)) = weight lo (score (queryOf x1 b) (rowsOf x0 b)) l := by
  rw [val_main_v11_apply, val_main_v10_apply, val_main_v9_apply, v7_ix]
  have e : idx_main_v9 (idx_main_v10 (ix3 b l (0 : Fin 1))) = ix2 b (0 : Fin 1) :=
    funext fun a => Fin.ext (by match a with | ⟨0, _⟩ => rfl | ⟨1, _⟩ => rfl)
  rw [e, v8_ix]
  rfl

/-- The first result: the weights as a matrix. -/
theorem v22_eq : val_main_v22 (F := Ideal) x0 x1 = weightsMat lo x0 x1 := by
  funext i
  obtain ⟨b, l, rfl⟩ : ∃ (b : Fin 32) (l : Fin 8192), i = ix2 b l := ⟨i 0, i 1, eq_ix2 i⟩
  rw [val_main_v22_apply, weightsMat_ix]
  have e : idx_main_v22 (ix2 b l) = ix3 b l (0 : Fin 1) :=
    funext fun a => Fin.ext (by
      have hb : b.val < 32 := b.isLt
      have hl : l.val < 8192 := l.isLt
      match a with
      | ⟨0, _⟩ => show (b.val * 8192 + l.val) / 8192 = b.val; omega
      | ⟨1, _⟩ => show (b.val * 8192 + l.val) / 1 % 8192 = l.val; omega
      | ⟨2, _⟩ => rfl)
  rw [e, v11_ix]

/-- The second matrix product: the context vectors. -/
theorem v12_eq : val_main_v12 (F := Ideal) x0 x1 = contextArr lo x0 x1 := by
  funext i
  obtain ⟨b, u, d, rfl⟩ : ∃ (b : Fin 32) (u : Fin 1) (d : Fin 512), i = ix3 b u d := ⟨i 0, i 1, i 2, eq_ix3 i⟩
  obtain rfl : u = 0 := Subsingleton.elim _ _
  rw [val_main_v12_apply, contextArr_ix]
  unfold context
  refine Finset.sum_congr rfl fun k _ => ?_
  have el : lidx_main_v12 (ix3 b (0 : Fin 1) d) k = ix3 b k (0 : Fin 1) :=
    funext fun a => Fin.ext (by match a with | ⟨0, _⟩ => rfl | ⟨1, _⟩ => rfl | ⟨2, _⟩ => rfl)
  have er : ridx_main_v12 (ix3 b (0 : Fin 1) d) k = ix3 b k d :=
    funext fun a => Fin.ext (by match a with | ⟨0, _⟩ => rfl | ⟨1, _⟩ => rfl | ⟨2, _⟩ => rfl)
  rw [el, er, v11_ix]
  rfl

end Cert.ReferenceIdeal.AttnValue

end
-- ==== Proof.lean ====
/-
  Single-query attention with a projection, kernel against reference, at the ideal instance.

  Both programs take rows `h : [32, 8192, 512]`, queries `s : [32, 1, 512]`, a weight matrix and a bias. For each
  batch they form the scores `e l = ∑ d, s d · h l d`, the softmax weights `a l = exp (e l − max e) / ∑ exp (e − max e)`
  and the context vector `∑ l, a l · h l d`; they return the weights as a matrix `[32, 8192]` and the projection
  `tanh [context, s] · Wᵀ + bias`. The kernel does one batch per grid point and leaves the projection to the host;
  the reference is four batched host operations and the same projection.

  Over the extended reals the two agree entry by entry with no condition on the inputs: the inner product does
  not depend on the order of its two factors, a lane reduction and a host reduction over one axis are the same
  fold or sum over that axis's coordinates, the reference's extra maximum with minus infinity is absorbed by a
  fold that already starts there, and the kernel's and the host's exponential and quotient are one function each.
  The projection is one function of four arrays on both sides and is never opened.

  The kernel side is read off the frame run (the arrays after the region, then the host lines after it), the
  reference side off its run and its stages read at an index.
-/
import proofs.«131365_j50594714747318_2_alg».proof.Defs
import proofs.«131365_j50594714747318_2_alg».proof.Proof.Gen.Kernel
import proofs.«131365_j50594714747318_2_alg».proof.Proof.Gen.Kernel.Skeleton
import proofs.«131365_j50594714747318_2_alg».proof.Proof.Gen.Kernel.Launch
import proofs.«131365_j50594714747318_2_alg».proof.Proof.Gen.Kernel.Points
import proofs.«131365_j50594714747318_2_alg».proof.Proof.Gen.Kernel.Frame
import proofs.«131365_j50594714747318_2_alg».proof.Proof.Gen.KernelIdeal
import proofs.«131365_j50594714747318_2_alg».proof.Proof.Gen.KernelIdeal.Skeleton
import proofs.«131365_j50594714747318_2_alg».proof.Proof.Gen.KernelIdeal.Launch
import proofs.«131365_j50594714747318_2_alg».proof.Proof.Gen.KernelIdeal.Points
import proofs.«131365_j50594714747318_2_alg».proof.Proof.Gen.KernelIdeal.Frame
import proofs.«131365_j50594714747318_2_alg».proof.Proof.Gen.ReferenceIdeal
import proofs.«131365_j50594714747318_2_alg».proof.Proof.Gen.Pre_finite_inputs
import proofs.«131365_j50594714747318_2_alg».proof.Proof.Gen.ReferenceIdeal.Run
import proofs.«131365_j50594714747318_2_alg».proof.Proof.Gen.ReferenceIdeal.Read
import proofs.«131365_j50594714747318_2_alg».proof.Proof.KernelRun
import proofs.«131365_j50594714747318_2_alg».proof.Proof.RefValue
import Idealize.ShloMosaic.Adequacy
import Idealize.ShloMosaic.Init

noncomputable section

namespace Cert.Proof

open Idealize.ShloMosaic Idealize.ShloMosaic.TcCoe Idealize.SL.Sem Cert.Attn

/-- The reference's second result is the kernel program's projection applied to the reference's context array
    and the arguments: the same chain of operations, term for term. -/
theorem ref_proj (x0 : (⟨Cert.ReferenceIdeal.S32x8192x512, .f32⟩ : BufTy).Contents (Elt Ideal))
    (x1 : (⟨Cert.ReferenceIdeal.S32x1x512, .f32⟩ : BufTy).Contents (Elt Ideal))
    (x2 : (⟨Cert.ReferenceIdeal.S512x1024, .f32⟩ : BufTy).Contents (Elt Ideal))
    (x3 : (⟨Cert.ReferenceIdeal.S512, .f32⟩ : BufTy).Contents (Elt Ideal)) :
    Cert.ReferenceIdeal.Read.val_main_v21 (F := Ideal) x0 x1 x2 x3
      = Cert.KernelIdeal.AttnValue.proj (Cert.ReferenceIdeal.Read.val_main_v12 (F := Ideal) x0 x1) x1 x2 x3 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the weights matrix and the projection of the context vectors of the same arguments. -/
theorem algebraic : Cert.algebraic_KernelIdeal_ReferenceIdeal := by
  intro m ρ m' ρ' _ hagree
  refine ⟨_, _, Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1]
    exact (Cert.ReferenceIdeal.Read.val_main_v22_eq _ _).trans (Cert.ReferenceIdeal.AttnValue.v22_eq _ _)
  · rw [(hagree c).1, (hagree c).2.1, (hagree c).2.2.1, (hagree c).2.2.2]
    refine (Cert.ReferenceIdeal.Read.val_main_v21_eq _ _ _ _).trans ((ref_proj _ _ _ _).trans ?_)
    rw [Cert.ReferenceIdeal.AttnValue.v12_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
